-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024 : Shape := ⟨3, ![4, 1024, 1024]⟩
abbrev S4x16x1024x1024 : Shape := ⟨4, ![4, 16, 1024, 1024]⟩
abbrev S3072x1024 : Shape := ⟨2, ![3072, 1024]⟩
abbrev S3072 : Shape := ⟨1, ![3072]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S4x16x1024x1024 : S_.BroadcastsInDim S4x16x1024x1024 (![] : Fin 0 → Fin S4x16x1024x1024.rank)
  reducesTo_S4x16x1024x1024_S_d0_1_2_3 : S4x16x1024x1024.ReducesTo [0, 1, 2, 3] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn_part1 {F : FTy → Type} [FloatOps F] (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  main_v18

def fn {F : FTy → Type} [FloatOps F] (main_arg0 : FVec F S4x1024x1024 .f32) (main_arg1 : FVec F S4x16x1024x1024 .f32) (main_arg2 : FVec F S3072x1024 .f32) (main_arg3 : FVec F S3072 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S4x16x1024x1024 .f32 := Host.absf main_arg1
  let main_cst_0 : FVec F S_ .f32 := constant S_ .f32 0x7F800000#32
  let main_v5 : FVec F S4x16x1024x1024 .f32 := broadcastInDim S4x16x1024x1024 ![] bcast_S_S4x16x1024x1024 main_cst_0
  let main_v6 : IVec S4x16x1024x1024 1 := cmpf .olt main_v4 main_v5
  let main_c_1 : IVec S_ 1 := constantI S_ 1 1#1
  let main_v7 : IVec S_ 1 := (fun x v => Host.reduce IntOp.andi x v reducesTo_S4x16x1024x1024_S_d0_1_2_3 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_v13 main_v16
-- ==== Kernel.lean ====
abbrev S4x1024x1024 : Shape := ⟨3, ![4, 1024, 1024]⟩
abbrev S4x16x1024x1024 : Shape := ⟨4, ![4, 16, 1024, 1024]⟩
abbrev S3072x1024 : Shape := ⟨2, ![3072, 1024]⟩
abbrev S3072 : Shape := ⟨1, ![3072]⟩
abbrev S4096x1024 : Shape := ⟨2, ![4096, 1024]⟩
abbrev S1024x3072 : Shape := ⟨2, ![1024, 3072]⟩
abbrev S1x3072 : Shape := ⟨2, ![1, 3072]⟩
abbrev S4096x3072 : Shape := ⟨2, ![4096, 3072]⟩
abbrev S512x1024 : Shape := ⟨2, ![512, 1024]⟩
abbrev S1024x1024 : Shape := ⟨2, ![1024, 1024]⟩
abbrev S1x1024 : Shape := ⟨2, ![1, 1024]⟩
abbrev S4x1024x3x16x64 : Shape := ⟨5, ![4, 1024, 3, 16, 64]⟩
abbrev S4x1024x1x16x64 : Shape := ⟨5, ![4, 1024, 1, 16, 64]⟩
abbrev S4x1024x16x64 : Shape := ⟨4, ![4, 1024, 16, 64]⟩
abbrev S4x16x1024x64 : Shape := ⟨4, ![4, 16, 1024, 64]⟩
abbrev S64x1024x64 : Shape := ⟨3, ![64, 1024, 64]⟩
abbrev S64x1024x1024 : Shape := ⟨3, ![64, 1024, 1024]⟩
abbrev S1x1024x64 : Shape := ⟨3, ![1, 1024, 64]⟩
abbrev S1x1024x1024 : Shape := ⟨3, ![1, 1024, 1024]⟩
abbrev S1024x64 : Shape := ⟨2, ![1024, 64]⟩
abbrev S1024 : Shape := ⟨1, ![1024]⟩
abbrev S1024x1 : Shape := ⟨2, ![1024, 1]⟩

abbrev nBuf : Space → Nat
  | .hbm => 29
  | .vmem => 18
  | .smem => 0
  | _ => 0

abbrev bufTy : (tb : Table) → Fin (tcTables nBuf tb) → BufTy
  | .hbm, ⟨0, _⟩ => ⟨S4x1024x1024, .f32⟩
  | .hbm, ⟨1, _⟩ => ⟨S4x16x1024x1024, .f32⟩
  | .hbm, ⟨2, _⟩ => ⟨S3072x1024, .f32⟩
  | .hbm, ⟨3, _⟩ => ⟨S3072, .f32⟩
  | .hbm, ⟨4, _⟩ => ⟨S4096x1024, .f32⟩
  | .hbm, ⟨5, _⟩ => ⟨S1024x3072, .f32⟩
  | .hbm, ⟨6, _⟩ => ⟨S1x3072, .f32⟩
  | .hbm, ⟨7, _⟩ => ⟨S4096x3072, .f32⟩
  | .hbm, ⟨8, _⟩ => ⟨S4x1024x3x16x64, .f32⟩
  | .hbm, ⟨9, _⟩ => ⟨S4x1024x1x16x64, .f32⟩
  | .hbm, ⟨10, _⟩ => ⟨S4x1024x16x64, .f32⟩
  | .hbm, ⟨11, _⟩ => ⟨S4x16x1024x64, .f32⟩
  | .hbm, ⟨12, _⟩ => ⟨S64x1024x64, .f32⟩
  | .hbm, ⟨13, _⟩ => ⟨S64x1024x64, .bf16⟩
  | .hbm, ⟨14, _⟩ => ⟨S4x1024x1x16x64, .f32⟩
  | .hbm, ⟨15, _⟩ => ⟨S4x1024x16x64, .f32⟩
  | .hbm, ⟨16, _⟩ => ⟨S4x16x1024x64, .f32⟩
  | .hbm, ⟨17, _⟩ => ⟨S64x1024x64, .f32⟩
  | .hbm, ⟨18, _⟩ => ⟨S64x1024x64, .bf16⟩
  | .hbm, ⟨19, _⟩ => ⟨S4x1024x1x16x64, .f32⟩
  | .hbm, ⟨20, _⟩ => ⟨S4x1024x16x64, .f32⟩
  | .hbm, ⟨21, _⟩ => ⟨S4x16x1024x64, .f32⟩
  | .hbm, ⟨22, _⟩ => ⟨S64x1024x64, .f32⟩
  | .hbm, ⟨23, _⟩ => ⟨S64x1024x64, .bf16⟩
  | .hbm, ⟨24, _⟩ => ⟨S64x1024x1024, .f32⟩
  | .hbm, ⟨25, _⟩ => ⟨S64x1024x64, .f32⟩
  | .hbm, ⟨26, _⟩ => ⟨S4x16x1024x64, .f32⟩
  | .hbm, ⟨27, _⟩ => ⟨S4x1024x16x64, .f32⟩
  | .hbm, ⟨28, _⟩ => ⟨S4x1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x1024x64, .bf16⟩
  | .local _ .vmem, ⟨14, _⟩ => ⟨S1x1024x1024, .f32⟩
  | .local _ .vmem, ⟨15, _⟩ => ⟨S1x1024x1024, .f32⟩
  | .local _ .vmem, ⟨16, _⟩ => ⟨S1x1024x64, .f32⟩
  | .local _ .vmem, ⟨17, _⟩ => ⟨S1x1024x64, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S4x1024x1024_S4096x1024 : S4x1024x1024.ShapeCasts S4096x1024
  transposes_S3072x1024_S1024x3072_1_0 : S3072x1024.Transposes [1, 0] S1024x3072
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x3072_S4x1024x3x16x64 : S4096x3072.ShapeCasts S4x1024x3x16x64
  slices_S4x1024x3x16x64_S4x1024x1x16x64_0_0_0_0_0 : S4x1024x3x16x64.Slices ![0, 0, 0, 0, 0] S4x1024x1x16x64
  shapeCasts_S4x1024x1x16x64_S4x1024x16x64 : S4x1024x1x16x64.ShapeCasts S4x1024x16x64
  transposes_S4x1024x16x64_S4x16x1024x64_0_2_1_3 : S4x1024x16x64.Transposes [0, 2, 1, 3] S4x16x1024x64
  shapeCasts_S4x16x1024x64_S64x1024x64 : S4x16x1024x64.ShapeCasts S64x1024x64
  slices_S4x1024x3x16x64_S4x1024x1x16x64_0_0_1_0_0 : S4x1024x3x16x64.Slices ![0, 0, 1, 0, 0] S4x1024x1x16x64
  slices_S4x1024x3x16x64_S4x1024x1x16x64_0_0_2_0_0 : S4x1024x3x16x64.Slices ![0, 0, 2, 0, 0] S4x1024x1x16x64
  shapeCasts_S4x16x1024x1024_S64x1024x1024 : S4x16x1024x1024.ShapeCasts S64x1024x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x64_S1x1024x64 : S1024x64.ShapeCasts S1x1024x64
  shapeCasts_S64x1024x64_S4x16x1024x64 : S64x1024x64.ShapeCasts S4x16x1024x64
  transposes_S4x16x1024x64_S4x1024x16x64_0_2_1_3 : S4x16x1024x64.Transposes [0, 2, 1, 3] S4x1024x16x64
  shapeCasts_S4x1024x16x64_S4x1024x1024 : S4x1024x16x64.ShapeCasts S4x1024x1024
  dot_S512x1024_S1024x1024_S512x1024_1_0_0_1_n_n_wf : DotDims.WF S512x1024 S1024x1024 S512x1024 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .f32 = 32 ∨ (Rect.block (s := S1024x3072) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x3072.size a
  hwx0_3 : ∀ i : grid0.Coords, EltTy.bits .f32 = 32 ∨ (Rect.block (s := S4096x3072) S512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S64x1024x64.size a
  hwx1_0 : ∀ i : grid1.Coords, EltTy.bits .bf16 = 32 ∨ (Rect.block (s := S64x1024x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S64x1024x64.size a
  hwx1_1 : ∀ i : grid1.Coords, EltTy.bits .bf16 = 32 ∨ (Rect.block (s := S64x1024x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S64x1024x64.size a
  hwx1_2 : ∀ i : grid1.Coords, EltTy.bits .bf16 = 32 ∨ (Rect.block (s := S64x1024x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S64x1024x1024.size a
  hwx1_3 : ∀ i : grid1.Coords, EltTy.bits .f32 = 32 ∨ (Rect.block (s := S64x1024x1024) S1x1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x64.size a ≤ S64x1024x64.size a
  hwx1_4 : ∀ i : grid1.Coords, EltTy.bits .f32 = 32 ∨ (Rect.block (s := S64x1024x64) S1x1024x64.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x1024x1024 : Shape := ⟨3, ![4, 1024, 1024]⟩
abbrev S4x16x1024x1024 : Shape := ⟨4, ![4, 16, 1024, 1024]⟩
abbrev S3072x1024 : Shape := ⟨2, ![3072, 1024]⟩
abbrev S3072 : Shape := ⟨1, ![3072]⟩
abbrev S4x1024x3072 : Shape := ⟨3, ![4, 1024, 3072]⟩
abbrev S1x1x3072 : Shape := ⟨3, ![1, 1, 3072]⟩
abbrev S4x1024x3x16x64 : Shape := ⟨5, ![4, 1024, 3, 16, 64]⟩
abbrev S4x1024x1x16x64 : Shape := ⟨5, ![4, 1024, 1, 16, 64]⟩
abbrev S4x1024x16x64 : Shape := ⟨4, ![4, 1024, 16, 64]⟩
abbrev S4x16x1024x64 : Shape := ⟨4, ![4, 16, 1024, 64]⟩
abbrev S_ : Shape := ⟨0, ![]⟩
abbrev S4x16x1024 : Shape := ⟨3, ![4, 16, 1024]⟩
abbrev S4x16x1024x1 : Shape := ⟨4, ![4, 16, 1024, 1]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x16x1024x1024, .f32⟩
  | .hbm, ⟨2, _⟩ => ⟨S3072x1024, .f32⟩
  | .hbm, ⟨3, _⟩ => ⟨S3072, .f32⟩
  | .hbm, ⟨4, _⟩ => ⟨S4x1024x3072, .f32⟩
  | .hbm, ⟨5, _⟩ => ⟨S1x1x3072, .f32⟩
  | .hbm, ⟨6, _⟩ => ⟨S4x1024x3072, .f32⟩
  | .hbm, ⟨7, _⟩ => ⟨S4x1024x3072, .f32⟩
  | .hbm, ⟨8, _⟩ => ⟨S4x1024x3x16x64, .f32⟩
  | .hbm, ⟨9, _⟩ => ⟨S4x1024x1x16x64, .f32⟩
  | .hbm, ⟨10, _⟩ => ⟨S4x1024x16x64, .f32⟩
  | .hbm, ⟨11, _⟩ => ⟨S4x16x1024x64, .f32⟩
  | .hbm, ⟨12, _⟩ => ⟨S4x1024x1x16x64, .f32⟩
  | .hbm, ⟨13, _⟩ => ⟨S4x1024x16x64, .f32⟩
  | .hbm, ⟨14, _⟩ => ⟨S4x16x1024x64, .f32⟩
  | .hbm, ⟨15, _⟩ => ⟨S4x1024x1x16x64, .f32⟩
  | .hbm, ⟨16, _⟩ => ⟨S4x1024x16x64, .f32⟩
  | .hbm, ⟨17, _⟩ => ⟨S4x16x1024x64, .f32⟩
  | .hbm, ⟨18, _⟩ => ⟨S4x16x1024x1024, .f32⟩
  | .hbm, ⟨19, _⟩ => ⟨S_, .f32⟩
  | .hbm, ⟨20, _⟩ => ⟨S4x16x1024x1024, .f32⟩
  | .hbm, ⟨21, _⟩ => ⟨S4x16x1024x1024, .f32⟩
  | .hbm, ⟨22, _⟩ => ⟨S4x16x1024x1024, .f32⟩
  | .hbm, ⟨23, _⟩ => ⟨S_, .f32⟩
  | .hbm, ⟨24, _⟩ => ⟨S4x16x1024, .f32⟩
  | .hbm, ⟨25, _⟩ => ⟨S_, .f32⟩
  | .hbm, ⟨26, _⟩ => ⟨S4x16x1024, .f32⟩
  | .hbm, ⟨27, _⟩ => ⟨S4x16x1024, .f32⟩
  | .hbm, ⟨28, _⟩ => ⟨S4x16x1024x1, .f32⟩
  | .hbm, ⟨29, _⟩ => ⟨S4x16x1024x1024, .f32⟩
  | .hbm, ⟨30, _⟩ => ⟨S4x16x1024x1024, .f32⟩
  | .hbm, ⟨31, _⟩ => ⟨S4x16x1024x1024, .f32⟩
  | .hbm, ⟨32, _⟩ => ⟨S_, .f32⟩
  | .hbm, ⟨33, _⟩ => ⟨S4x16x1024, .f32⟩
  | .hbm, ⟨34, _⟩ => ⟨S4x16x1024x1, .f32⟩
  | .hbm, ⟨35, _⟩ => ⟨S4x16x1024x1024, .f32⟩
  | .hbm, ⟨36, _⟩ => ⟨S4x16x1024x1024, .f32⟩
  | .hbm, ⟨37, _⟩ => ⟨S4x16x1024x64, .f32⟩
  | .hbm, ⟨38, _⟩ => ⟨S4x1024x16x64, .f32⟩
  | .hbm, ⟨39, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x1024x3072_0_1_2 : S1x1x3072.BroadcastsInDim S4x1024x3072 (![0, 1, 2] : Fin 3 → Fin S4x1024x3072.rank)
  shapeCasts_S4x1024x3072_S4x1024x3x16x64 : S4x1024x3072.ShapeCasts S4x1024x3x16x64
  slices_S4x1024x3x16x64_S4x1024x1x16x64_0_0_0_0_0 : S4x1024x3x16x64.Slices ![0, 0, 0, 0, 0] S4x1024x1x16x64
  shapeCasts_S4x1024x1x16x64_S4x1024x16x64 : S4x1024x1x16x64.ShapeCasts S4x1024x16x64
  transposes_S4x1024x16x64_S4x16x1024x64_0_2_1_3 : S4x1024x16x64.Transposes [0, 2, 1, 3] S4x16x1024x64
  slices_S4x1024x3x16x64_S4x1024x1x16x64_0_0_1_0_0 : S4x1024x3x16x64.Slices ![0, 0, 1, 0, 0] S4x1024x1x16x64
  slices_S4x1024x3x16x64_S4x1024x1x16x64_0_0_2_0_0 : S4x1024x3x16x64.Slices ![0, 0, 2, 0, 0] S4x1024x1x16x64
  bcast_S_S4x16x1024x1024 : S_.BroadcastsInDim S4x16x1024x1024 (![] : Fin 0 → Fin S4x16x1024x1024.rank)
  reducesTo_S4x16x1024x1024_S4x16x1024_d3 : S4x16x1024x1024.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  transposes_S4x16x1024x64_S4x1024x16x64_0_2_1_3 : S4x16x1024x64.Transposes [0, 2, 1, 3] S4x1024x16x64
  shapeCasts_S4x1024x16x64_S4x1024x1024 : S4x1024x16x64.ShapeCasts S4x1024x1024
  dot_S4x1024x1024_S3072x1024_S4x1024x3072_2_1_01_0_n_n_wf : DotDims.WF S4x1024x1024 S3072x1024 S4x1024x3072 [2] [1] [0, 1] [0] [] []
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]

variable [Facts₀]

def dot_S4x1024x1024_S3072x1024_S4x1024x3072_2_1_01_0_n_n : DotDims S4x1024x1024 S3072x1024 S4x1024x3072 where
  lhsContracting := [2]
  rhsContracting := [1]
  lhsNonContracting := [0, 1]
  rhsNonContracting := [0]
  lhsBatch := []
  rhsBatch := []
  wf := dot_S4x1024x1024_S3072x1024_S4x1024x3072_2_1_01_0_n_n_wf
def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf

class Facts : Prop extends Facts₀ where

variable [Facts]
-- ==== Proof.KernelRun.lean ====
/-
  The idealized kernel's run with its RESULT named. @main is five segments — a stretch of host operations, the
  projection's pallas_call, a second stretch, the attention's pallas_call, a last stretch — and the buffer
  contents at each boundary are a fold from the launch memory (the generated `W0 … W5`). Every weakly fair
  execution terminates with every unscoped buffer at the last boundary's contents `W5`; here that reading is kept
  for the result buffer `main_v24` as well as for the four arguments (which walk back to the launch memory).
  What `W5` holds at `main_v24`, as a function of the arguments, is opened boundary by boundary in the sibling modules.
-/
import proofs.«169326_j56238301774596_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the result buffer at the
    last boundary's contents and the four argument arrays as launched. -/
theorem run : θ_run defs (onTc (τ := τ) (main (F := F))) ⟨m, fun _ => 0, ρ⟩ (fun r => ∀ c : Dev nD,
      r.2.mem ((c.tc : Thread nD τ).loc main_v24) = W5 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v24 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Out

end
-- ==== Proof.HostChain.lean ====
/-
  The host stretches of the kernel's program, read. Before the projection the three operands are re-laid: the hidden
  states flattened to [4096, 1024], the weight transposed, the bias viewed as one row. Between the two pallas_calls the
  projection's result is viewed as [4, 1024, 3, 16, 64], its three slices along the third axis are each moved to
  [4, 16, 1024, 64], flattened to [64, 1024, 64] and narrowed to bf16 — the query, key and value arrays — and the bias
  argument is flattened to [64, 1024, 1024]. After the attention the result is viewed as [4, 16, 1024, 64], moved to
  [4, 1024, 16, 64] and flattened to [4, 1024, 1024]. Each equation below says what one buffer holds at one boundary,
  as those operations of what the previous boundary holds.
-/
import proofs.«169326_j56238301774596_1_alg».proof.Proof.Gen.KernelIdeal.Frame
import Idealize.ShloMosaic.Lib.StableHlo.Run
import Idealize.ShloMosaic.PureOps.Ideal

set_option maxRecDepth 16384

noncomputable section

namespace Cert.KernelIdeal.Host

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg) (c : Dev nD)

/-! ## Entering the projection -/

theorem in_hidden : (V1 m ρ c main_v0 : S4096x1024.Idx → EReal)
    = shapeCast S4096x1024 (m ((c : Thread nD τ).loc main_arg0)) shapeCasts_S4x1024x1024_S4096x1024 := by
  dsimp only [V1, W1, hostOps0]; after_results <;> rfl

theorem in_weight : (V1 m ρ c main_v1 : S1024x3072.Idx → EReal)
    = transpose S1024x3072 [1, 0] (m ((c : Thread nD τ).loc main_arg2)) transposes_S3072x1024_S1024x3072_1_0 := by
  dsimp only [V1, W1, hostOps0]; after_results <;> rfl

theorem in_bias : (V1 m ρ c main_v2 : S1x3072.Idx → EReal)
    = shapeCast S1x3072 (m ((c : Thread nD τ).loc main_arg3)) shapeCasts_S3072_S1x3072 := by
  dsimp only [V1, W1, hostOps0]; after_results <;> rfl

/-! ## Leaving the projection -/

/-- The projection's result buffer holds what the pipeline's write-backs leave. -/
theorem out_proj : W2 m ρ c (Proc.devRef .tc main_v3) = (dat0 (V1 m ρ) c).arrAt 3 cfg0.N := W2_arr m ρ c 3

/-- The bias argument is untouched by the first stretch and the projection. -/
theorem keep_bias : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg1) := rfl

/-! ## Entering the attention -/

/-- One of the three slices of the projection's result, as a [64, 1024, 64] array of heads. -/
def heads (o : Nat) (hs : S4x1024x3x16x64.Slices ![0, 0, o, 0, 0] S4x1024x1x16x64) (y : S4096x3072.Idx → EReal) : S64x1024x64.Idx → EReal :=
  truncf (F := Ideal) (φ := .f32) .bf16 (shapeCast S64x1024x64 (transpose S4x16x1024x64 [0, 2, 1, 3] (shapeCast S4x1024x16x64
    (extractStridedSlice S4x1024x1x16x64 ![0, 0, o, 0, 0] (shapeCast S4x1024x3x16x64 y shapeCasts_S4096x3072_S4x1024x3x16x64) hs)
    shapeCasts_S4x1024x1x16x64_S4x1024x16x64) transposes_S4x1024x16x64_S4x16x1024x64_0_2_1_3) shapeCasts_S4x16x1024x64_S64x1024x64) bitsLt_bf16_f32

theorem in_query : (V3 m ρ c main_v9 : S64x1024x64.Idx → EReal)
    = heads 0 slices_S4x1024x3x16x64_S4x1024x1x16x64_0_0_0_0_0 (W2 m ρ c (Proc.devRef .tc main_v3)) := by
  dsimp only [V3, W3, hostOps1]; after_results <;> rfl

theorem in_key : (V3 m ρ c main_v14 : S64x1024x64.Idx → EReal)
    = heads 1 slices_S4x1024x3x16x64_S4x1024x1x16x64_0_0_1_0_0 (W2 m ρ c (Proc.devRef .tc main_v3)) := by
  dsimp only [V3, W3, hostOps1]; after_results <;> rfl

theorem in_value : (V3 m ρ c main_v19 : S64x1024x64.Idx → EReal)
    = heads 2 slices_S4x1024x3x16x64_S4x1024x1x16x64_0_0_2_0_0 (W2 m ρ c (Proc.devRef .tc main_v3)) := by
  dsimp only [V3, W3, hostOps1]; after_results <;> rfl

theorem in_attn_bias : (V3 m ρ c main_v20 : S64x1024x1024.Idx → EReal)
    = shapeCast S64x1024x1024 (W2 m ρ c (Proc.devRef .tc main_arg1)) shapeCasts_S4x16x1024x1024_S64x1024x1024 := by
  dsimp only [V3, W3, hostOps1]; after_results <;> rfl

/-! ## Leaving the attention, and the result -/

theorem out_attn : W4 m ρ c (Proc.devRef .tc main_v21) = (dat1 (V3 m ρ) c).arrAt 4 cfg1.N := W4_arr m ρ c 4

/-- The last stretch: the heads merged back into [4, 1024, 1024]. -/
def merge (y : S64x1024x64.Idx → EReal) : S4x1024x1024.Idx → EReal :=
  shapeCast S4x1024x1024 (transpose S4x1024x16x64 [0, 2, 1, 3] (shapeCast S4x16x1024x64 y shapeCasts_S64x1024x64_S4x16x1024x64)
    transposes_S4x16x1024x64_S4x1024x16x64_0_2_1_3) shapeCasts_S4x1024x16x64_S4x1024x1024

theorem result : (W5 m ρ c (Proc.devRef .tc main_v24) : S4x1024x1024.Idx → EReal) = merge (W4 m ρ c (Proc.devRef .tc main_v21)) := by
  dsimp only [W5, hostOps2]; after_results <;> rfl

end Cert.KernelIdeal.Host

end
-- ==== Proof.ProjBody.lean ====
/-
  The projection kernel's body at an index. One grid point holds a [512, 1024] block `x` of the flattened hidden
  states, a [1024, 1024] block `w` of the transposed weight and a [1, 1024] block `b` of the bias, and stores
  `x · w + b`: at row `p`, column `q` the sum over `k` of `x[p, k] · w[k, q]`, plus `b[0, q]`. At the ideal
  values the narrowing of both operands to bf16 is the identity and the product into a zero accumulator is the
  plain sum, so nothing else is left of the body.
-/
import proofs.«169326_j56238301774596_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Proj

open Cert.KernelIdeal Cert.KernelIdeal.Gen Idealize.ShloMosaic Idealize.ShloMosaic.ValueIdx

/-- The body's one contraction: rows of the left block against columns of the right block. -/
abbrev D0 : DotDims S512x1024 S1024x1024 S512x1024 := dot_S512x1024_S1024x1024_S512x1024_1_0_0_1_n_n

/-- The left operand's row is the result's row. -/
theorem lhs_row (i : S512x1024.Idx) (κ : D0.contr.Idx) : (D0.lhsIdx i κ 0).val = (i 0).val := by
  unfold DotDims.lhsIdx
  rw [dif_neg (show ¬(0 : Fin S512x1024.rank) ∈ D0.lhsBatch by decide), dif_pos (show (0 : Fin S512x1024.rank) ∈ D0.lhsNonContracting by decide)]
  rfl
/-- The right operand's column is the result's column. -/
theorem rhs_col (i : S512x1024.Idx) (κ : D0.contr.Idx) : (D0.rhsIdx i κ 1).val = (i 1).val := by
  unfold DotDims.rhsIdx
  rw [dif_neg (show ¬(1 : Fin S1024x1024.rank) ∈ D0.rhsBatch by decide), dif_pos (show (1 : Fin S1024x1024.rank) ∈ D0.rhsNonContracting by decide)]
  rfl

/-- A [512, 1024] × [1024, 1024] product into a zero accumulator, at `(p, q)`: the sum over the shared axis. -/
theorem matmul_at (a : FVec Ideal S512x1024 .bf16) (b : FVec Ideal S1024x1024 .bf16) (p : Fin 512) (q : Fin 1024) :
    matmul D0 none a b (constant S512x1024 .f32 0x00000000#32) (ix2 p q) = ∑ k : Fin 1024, a (ix2 p k) * b (ix2 k q) := by
  simp only [matmul]
  rw [Ideal.matmul_constant_zero_apply, ← Equiv.sum_comp (contrEquiv1 D0 1024 rfl rfl).symm]
  refine Finset.sum_congr rfl fun k _ => ?_
  have hk := contrEquiv1_symm_val D0 1024 rfl rfl k
  have el : D0.lhsIdx (ix2 p q) ((contrEquiv1 D0 1024 rfl rfl).symm k) = ix2 p k := funext fun ax => Fin.ext (by
    match ax with
    | ⟨0, _⟩ => exact lhs_row _ _
    | ⟨1, _⟩ => exact (D0.lhsIdx_val_of_single rfl _ _).trans hk)
  have er : D0.rhsIdx (ix2 p q) ((contrEquiv1 D0 1024 rfl rfl).symm k) = ix2 k q := funext fun ax => Fin.ext (by
    match ax with
    | ⟨0, _⟩ => exact (D0.rhsIdx_val_of_single rfl _ _).trans hk
    | ⟨1, _⟩ => exact rhs_col _ _)
  rw [el, er]

/-- What the body stores, at row `p` and column `q` of its block. -/
theorem pay_at (x : Vec Ideal S512x1024 .f32) (w : Vec Ideal S1024x1024 .f32) (b : Vec Ideal S1x1024 .f32) (p : Fin 512) (q : Fin 1024) :
    k0_pay1 (F := Ideal) x w b (ix2 p q) = (∑ k : Fin 1024, x (ix2 p k) * w (ix2 k q)) + b (ix2 (0 : Fin 1) q) := by
  unfold k0_pay1
  simp only [shapeCast_self]
  rw [addf_apply, matmul_at, broadcastTo_1b_ab_apply]
  rfl

end Cert.KernelIdeal.Proj

end
-- ==== Proof.ProjArray.lean ====
/-
  From blocks to the array, for the projection. The grid is 8 × 3: point (i, j) reads rows 512·i … 512·i+511 of the
  flattened hidden states (all 1024 columns), columns 1024·j … 1024·j+1023 of the transposed weight (all 1024 rows) and
  of the bias row, and writes back the [512, 1024] block (i, j) of the result. Every block is the restriction of ONE
  function of the three whole arrays — row `r`, column `e`: the sum over `k` of `h[r, k] · w[k, e]`, plus `b[0, e]` —
  and the 24 blocks cover the [4096, 3072] result, so after the region the result array IS that function.
-/
import proofs.«169326_j56238301774596_1_alg».proof.Proof.Gen.KernelIdeal.Frame
import proofs.«169326_j56238301774596_1_alg».proof.Proof.ProjBody

set_option maxRecDepth 16384

noncomputable section

namespace Cert.KernelIdeal.Proj

open Cert.KernelIdeal Cert.KernelIdeal.Gen Idealize.ShloMosaic Idealize.ShloMosaic.TcCoe Idealize.ShloMosaic.ValueIdx
open Idealize.ShloMosaic.Pipeline (Dat Cfg Window)

/-- The projection of the whole arrays: `h · w + b`, the bias row repeated down the rows. -/
def projArr (h : S4096x1024.Idx → EReal) (w : S1024x3072.Idx → EReal) (b : S1x3072.Idx → EReal) : S4096x3072.Idx → EReal :=
  fun i => (∑ k : Fin 1024, h (ix2 (⟨(i 0).val, (i 0).isLt⟩ : Fin 4096) k) * w (ix2 k (⟨(i 1).val, (i 1).isLt⟩ : Fin 3072)))
    + b (ix2 (0 : Fin 1) (⟨(i 1).val, (i 1).isLt⟩ : Fin 3072))

theorem offset_origin : (![0, 0] : Fin 2 → Nat) = fun _ => 0 := funext fun a => by fin_cases a <;> rfl

variable (V : (c : Dev nD) → (b : Ref sig .tc) → Buf (Elt Ideal) ((c : Thread nD τ).loc b))

/-- The printed index maps over the grid: the hidden-state block follows the result's block row, the weight and bias
    blocks its block column, and the result's block indices stay in their ranges. -/
theorem block_of_point : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 7 ∧ win0_3.index t (1 : Fin 2) ≤ 2 :=
  (by decide +kernel : ∀ t : Fin grid0.N, _)

/-- Every block of the result is some point's. -/
theorem point_of_block : ∀ (q0 : Fin 8) (q1 : Fin 3), ∃ t : Fin cfg0.N, win0_3.index t = ![q0.val, q1.val] :=
  (by decide +kernel : ∀ (q0 : Fin 8) (q1 : Fin 3), ∃ t : Fin grid0.N, win0_3.index t = ![q0.val, q1.val])

/-- The stored element from the blocks' entries, when each block entry is the whole array's at the matching place. -/
theorem stored_entry (x : Vec Ideal S512x1024 .f32) (w : Vec Ideal S1024x1024 .f32) (b : Vec Ideal S1x1024 .f32)
    (H : S4096x1024.Idx → EReal) (Wt : S1024x3072.Idx → EReal) (B : S1x3072.Idx → EReal)
    (p : Fin 512) (q : Fin 1024) (i : S4096x3072.Idx)
    (hx : ∀ k : Fin 1024, x (ix2 p k) = H (ix2 (⟨(i 0).val, (i 0).isLt⟩ : Fin 4096) k))
    (hw : ∀ k : Fin 1024, w (ix2 k q) = Wt (ix2 k (⟨(i 1).val, (i 1).isLt⟩ : Fin 3072)))
    (hb : b (ix2 (0 : Fin 1) q) = B (ix2 (0 : Fin 1) (⟨(i 1).val, (i 1).isLt⟩ : Fin 3072))) :
    k0_pay1 (F := Ideal) x w b (ix2 p q) = projArr H Wt B i := by
  rw [pay_at]; unfold projArr
  rw [hb]
  exact congrArg (· + _) (Finset.sum_congr rfl fun k _ => by rw [hx k, hw k])

/-- What point `t` writes back is block `t` of the projection of the arrays as the region finds them. -/
theorem written_block (c : Dev nD) (t : Fin cfg0.N) :
    (dat0 V c).flushed 3 t = ((cfg0.win 3).blk t).view.read (Elt Ideal) (projArr (V c main_v0) (V c main_v1) (V c main_v2)) := by
  show (cfg0.win 3).cut (grid0.coords t) ((dat0 V c).after 3 t) = _
  rw [after0_3]
  unfold out0_3
  rw [View.canon_unit_zero offset_origin]
  simp only [View.ld_unit_zero (S := S512x1024) offset_origin, View.ld_unit_zero (S := S1024x1024) offset_origin, View.ld_unit_zero (S := S1x1024) offset_origin]
  funext j
  obtain ⟨e0, e1, e2, e3, e4, e5, e6, e7⟩ := block_of_point t
  have hp : (j 0).val < 512 := (j 0).isLt
  have hq : (j 1).val < 1024 := (j 1).isLt
  have hj : j = (ix2 (⟨(j 0).val, hp⟩ : Fin 512) (⟨(j 1).val, hq⟩ : Fin 1024) : S512x1024.Idx) :=
    funext fun a => by match a with | ⟨0, _⟩ => rfl | ⟨1, _⟩ => rfl
  show k0_pay1 (F := Ideal) (iblk0 V c 0 t) (iblk0 V c 1 t) (iblk0 V c 2 t) j
    = projArr (V c main_v0) (V c main_v1) (V c main_v2) (((cfg0.win 3).blk t).view.emb j)
  refine (congrArg (k0_pay1 (F := Ideal) (iblk0 V c 0 t) (iblk0 V c 1 t) (iblk0 V c 2 t)) hj).trans ?_
  refine stored_entry (iblk0 V c 0 t) (iblk0 V c 1 t) (iblk0 V c 2 t) (V c main_v0) (V c main_v1) (V c main_v2)
    ⟨(j 0).val, hp⟩ ⟨(j 1).val, hq⟩ (((cfg0.win 3).blk t).view.emb j) (fun k => ?_) (fun k => ?_) ?_
  · show V c main_v0 (((cfg0.win 0).blk t).view.emb (ix2 (⟨(j 0).val, hp⟩ : Fin 512) k)) = V c main_v0 _
    refine congrArg (V c main_v0) (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 1024 + 1 * k.val = k.val; omega
  · show V c main_v1 (((cfg0.win 1).blk t).view.emb (ix2 k (⟨(j 1).val, hq⟩ : Fin 1024))) = V c main_v1 _
    refine congrArg (V c main_v1) (funext fun a => Fin.ext ?_)
    match a with
    | ⟨0, _⟩ => show win0_1.index t (0 : Fin 2) * 1024 + 1 * k.val = k.val; omega
    | ⟨1, _⟩ => show win0_1.index t (1 : Fin 2) * 1024 + 1 * (j 1).val = win0_3.index t (1 : Fin 2) * 1024 + 1 * (j 1).val; omega
  · show V c main_v2 (((cfg0.win 2).blk t).view.emb (ix2 (0 : Fin 1) (⟨(j 1).val, hq⟩ : Fin 1024))) = V c main_v2 _
    refine congrArg (V c main_v2) (funext fun a => Fin.ext ?_)
    match a with
    | ⟨0, _⟩ => show win0_2.index t (0 : Fin 2) * 1 + 1 * 0 = 0; omega
    | ⟨1, _⟩ => show win0_2.index t (1 : Fin 2) * 1024 + 1 * (j 1).val = win0_3.index t (1 : Fin 2) * 1024 + 1 * (j 1).val; omega

/-- An index of the result is in point `t`'s block iff each coordinate is in the block's range on its axis. -/
theorem in_block_iff (t : Fin cfg0.N) (i : S4096x3072.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v3).slice (win0_3.rect t)).set ↔ _
  rw [View.set_slice_whole, Rect.mem_set_unit]
  exact Iff.rfl

/-- Every index of the result is in some point's block: row `r`, column `e` is in block (r / 512, e / 1024). -/
theorem blocks_cover (i : S4096x3072.Idx) : ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := point_of_block ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [in_block_iff]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- After the region the result array is the projection of the three arrays the region found. -/
theorem result_array (c : Dev nD) : (dat0 V c).arrAt 3 cfg0.N = projArr (V c main_v0) (V c main_v1) (V c main_v2) :=
  (dat0 V c).arrAt_eq_of_cover 3 (projArr (V c main_v0) (V c main_v1) (V c main_v2)) (fun t _ => written_block V c t) blocks_cover

end Cert.KernelIdeal.Proj

end
-- ==== Proof.LibKeepdims.lean ====
/-
  Two layout operations read at an index given by coordinates, for a row reduction that keeps its axis
  (`sum(..., axis=-1, keepdims=True)`): the reduced vector `[a]` is first viewed as a column `[a, 1]`, and the column is
  then broadcast along the second axis to `[a, b]`. At `(p, c)` both read the vector's entry `p`: a row-major position in
  `[a, 1]` is the row number itself, and a broadcast reads coordinate `0` on the operand's unit axis whatever `c` is.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit coordinate `u`:
    the row-major position of `(p, u)` in `[a, 1]` is `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`: the first axis is kept (also when
    `a = 1`, where the only row is row `0`), the second is the operand's unit axis and reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.RowSoftmax.lean ====
/-
  Attention along one row, over the extended reals. A row of scores `sc : Fin 1024 → EReal` is shifted by its
  maximum (taken from −∞, and once more against −∞, as both programs do), exponentiated, and divided by the sum
  of the exponentials; the row of weights so obtained is then paired with a column `v` of values. Both programs
  compute this one function of a score row and a value column; nothing here depends on either program.
-/
import Idealize.ShloMosaic.PureOps.Ideal

noncomputable section

namespace Cert.Softmax

open Idealize.ShloMosaic

/-- The f32 word of −∞, as an extended real. -/
abbrev negInf : EReal := Ideal.ofBits .f32 0xFF800000#32

/-- The row's maximum: the fold of `max` from −∞, joined once more with −∞. -/
def rowMax (sc : Fin 1024 → EReal) : EReal := max negInf ((Finset.univ : Finset (Fin 1024)).fold max negInf sc)

/-- The shifted exponential of entry `t`. -/
def rowExp (sc : Fin 1024 → EReal) (t : Fin 1024) : EReal := Ideal.exp (sc t - rowMax sc)

/-- The softmax weight of entry `t`: its shifted exponential over the row's sum of them. -/
def prob (sc : Fin 1024 → EReal) (t : Fin 1024) : EReal := Ideal.div (rowExp sc t) (∑ t' : Fin 1024, rowExp sc t')

/-- One output element: the weights of the score row against a column of values. -/
def attn (sc v : Fin 1024 → EReal) : EReal := ∑ t : Fin 1024, prob sc t * v t

end Cert.Softmax

end
-- ==== Proof.AttnBody.lean ====
/-
  The attention kernel's body at an index. One grid point holds the [1, 1024, 64] blocks `q`, `k`, `v` of one
  (batch, head) pair and its [1, 1024, 1024] block of the additive bias. The body forms the scores
  `q · kᵀ · 2⁻³ + bias`, takes the softmax of each row, and multiplies by `v`: the stored element at `(s, d)` is the
  row-softmax attention of score row `s` against column `d` of `v`. At the ideal values the narrowing of the weights
  to bf16 is the identity and each product into a zero accumulator is a plain sum.
-/
import proofs.«169326_j56238301774596_1_alg».proof.Proof.Gen.KernelIdeal.Skeleton
import proofs.«169326_j56238301774596_1_alg».proof.Proof.LibKeepdims
import proofs.«169326_j56238301774596_1_alg».proof.Proof.RowSoftmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Attn

open Cert.KernelIdeal Cert.KernelIdeal.Gen Idealize.ShloMosaic Idealize.ShloMosaic.ValueIdx Cert.Softmax

/-- Scores: rows of `q` against rows of `k`. -/
abbrev D1 : DotDims S1024x64 S1024x64 S1024x1024 := dot_S1024x64_S1024x64_S1024x1024_1_1_0_0_n_n
/-- Output: rows of the weights against columns of `v`. -/
abbrev D2 : DotDims S1024x1024 S1024x64 S1024x64 := dot_S1024x1024_S1024x64_S1024x64_1_0_0_1_n_n

theorem d1_lhs_row (i : S1024x1024.Idx) (κ : D1.contr.Idx) : (D1.lhsIdx i κ 0).val = (i 0).val := by
  unfold DotDims.lhsIdx
  rw [dif_neg (show ¬(0 : Fin S1024x64.rank) ∈ D1.lhsBatch by decide), dif_pos (show (0 : Fin S1024x64.rank) ∈ D1.lhsNonContracting by decide)]
  rfl
theorem d1_rhs_row (i : S1024x1024.Idx) (κ : D1.contr.Idx) : (D1.rhsIdx i κ 0).val = (i 1).val := by
  unfold DotDims.rhsIdx
  rw [dif_neg (show ¬(0 : Fin S1024x64.rank) ∈ D1.rhsBatch by decide), dif_pos (show (0 : Fin S1024x64.rank) ∈ D1.rhsNonContracting by decide)]
  rfl
theorem d2_lhs_row (i : S1024x64.Idx) (κ : D2.contr.Idx) : (D2.lhsIdx i κ 0).val = (i 0).val := by
  unfold DotDims.lhsIdx
  rw [dif_neg (show ¬(0 : Fin S1024x1024.rank) ∈ D2.lhsBatch by decide), dif_pos (show (0 : Fin S1024x1024.rank) ∈ D2.lhsNonContracting by decide)]
  rfl
theorem d2_rhs_col (i : S1024x64.Idx) (κ : D2.contr.Idx) : (D2.rhsIdx i κ 1).val = (i 1).val := by
  unfold DotDims.rhsIdx
  rw [dif_neg (show ¬(1 : Fin S1024x64.rank) ∈ D2.rhsBatch by decide), dif_pos (show (1 : Fin S1024x64.rank) ∈ D2.rhsNonContracting by decide)]
  rfl

/-- `a · bᵀ` into a zero accumulator, at `(s, t)`: the sum over the 64 shared columns. -/
theorem matmul_qk_at (a b : FVec Ideal S1024x64 .bf16) (s t : Fin 1024) :
    matmul D1 none a b (constant S1024x1024 .f32 0x00000000#32) (ix2 s t) = ∑ e : Fin 64, a (ix2 s e) * b (ix2 t e) := by
  simp only [matmul]
  rw [Ideal.matmul_constant_zero_apply, ← Equiv.sum_comp (contrEquiv1 D1 64 rfl rfl).symm]
  refine Finset.sum_congr rfl fun e _ => ?_
  have he := contrEquiv1_symm_val D1 64 rfl rfl e
  have el : D1.lhsIdx (ix2 s t) ((contrEquiv1 D1 64 rfl rfl).symm e) = ix2 s e := funext fun ax => Fin.ext (by
    match ax with
    | ⟨0, _⟩ => exact d1_lhs_row _ _
    | ⟨1, _⟩ => exact (D1.lhsIdx_val_of_single rfl _ _).trans he)
  have er : D1.rhsIdx (ix2 s t) ((contrEquiv1 D1 64 rfl rfl).symm e) = ix2 t e := funext fun ax => Fin.ext (by
    match ax with
    | ⟨0, _⟩ => exact d1_rhs_row _ _
    | ⟨1, _⟩ => exact (D1.rhsIdx_val_of_single rfl _ _).trans he)
  rw [el, er]

/-- `p · v` into a zero accumulator, at `(s, d)`: the sum over the 1024 shared entries. -/
theorem matmul_pv_at (a : FVec Ideal S1024x1024 .bf16) (b : FVec Ideal S1024x64 .bf16) (s : Fin 1024) (d : Fin 64) :
    matmul D2 none a b (constant S1024x64 .f32 0x00000000#32) (ix2 s d) = ∑ t : Fin 1024, a (ix2 s t) * b (ix2 t d) := by
  simp only [matmul]
  rw [Ideal.matmul_constant_zero_apply, ← Equiv.sum_comp (contrEquiv1 D2 1024 rfl rfl).symm]
  refine Finset.sum_congr rfl fun t _ => ?_
  have ht := contrEquiv1_symm_val D2 1024 rfl rfl t
  have el : D2.lhsIdx (ix2 s d) ((contrEquiv1 D2 1024 rfl rfl).symm t) = ix2 s t := funext fun ax => Fin.ext (by
    match ax with
    | ⟨0, _⟩ => exact d2_lhs_row _ _
    | ⟨1, _⟩ => exact (D2.lhsIdx_val_of_single rfl _ _).trans ht)
  have er : D2.rhsIdx (ix2 s d) ((contrEquiv1 D2 1024 rfl rfl).symm t) = ix2 t d := funext fun ax => Fin.ext (by
    match ax with
    | ⟨0, _⟩ => exact (D2.rhsIdx_val_of_single rfl _ _).trans ht
    | ⟨1, _⟩ => exact d2_rhs_col _ _)
  rw [el, er]

/-- The score matrix of one (batch, head) pair, as the body forms it. -/
def scoresV (q k : FVec Ideal S1x1024x64 .bf16) (bias : FVec Ideal S1x1024x1024 .f32) : FVec Ideal S1024x1024 .f32 :=
  addf (mulf (matmul D1 none (shapeCast S1024x64 q shapeCasts_S1x1024x64_S1024x64) (shapeCast S1024x64 k shapeCasts_S1x1024x64_S1024x64)
        (constant S1024x1024 .f32 0x00000000#32)) (broadcast S1024x1024 (Scalar.ofBits .f32 0x3E000000#32 : Ideal .f32)))
    (shapeCast S1024x1024 bias shapeCasts_S1x1024x1024_S1024x1024)

/-- Each row's maximum, from −∞. -/
def rowMaxV (x : FVec Ideal S1024x1024 .f32) : FVec Ideal S1024 .f32 :=
  multiReduction .maximumf [1] S1024 x 0xFF800000#32 reduces_S1024x1024_S1024 (.inl rfl) rfl
/-- Each row's sum. -/
def rowSumV (x : FVec Ideal S1024x1024 .f32) : FVec Ideal S1024 .f32 :=
  multiReduction .add [1] S1024 x 0x00000000#32 reduces_S1024x1024_S1024 (.inl rfl) rfl

/-- The shifted exponentials of a score matrix, row by row. -/
def expsV (x : FVec Ideal S1024x1024 .f32) : FVec Ideal S1024x1024 .f32 :=
  exp (subf x (broadcastTo S1024x1024 (shapeCast S1024x1 (maximumf (broadcast S1024 (Scalar.ofBits .f32 0xFF800000#32 : Ideal .f32))
    (rowMaxV x)) shapeCasts_S1024_S1024x1) broadcasts_S1024x1_S1024x1024))

/-- The softmax weights of a score matrix, row by row. -/
def probsV (x : FVec Ideal S1024x1024 .f32) : FVec Ideal S1024x1024 .f32 :=
  divf (expsV x) (broadcastTo S1024x1024 (shapeCast S1024x1 (rowSumV (expsV x)) shapeCasts_S1024_S1024x1) broadcasts_S1024x1_S1024x1024)

/-- The body's stored value is the product of those weights with `v`. -/
theorem pay_eq (q k v : FVec Ideal S1x1024x64 .bf16) (bias : FVec Ideal S1x1024x1024 .f32) :
    k1_pay1 (F := Ideal) q k v bias = shapeCast S1x1024x64 (matmul D2 none (truncf .bf16 (probsV (scoresV q k bias)) bitsLt_bf16_f32)
      (shapeCast S1024x64 v shapeCasts_S1x1024x64_S1024x64) (constant S1024x64 .f32 0x00000000#32)) shapeCasts_S1024x64_S1x1024x64 := rfl

/-- The inserted index of a row reduction: row `s`, entry `t`. -/
theorem lift_row (s : Fin 1024) (t : Fin 1024) : reduces_S1024x1024_S1024.lift (ix1 s) t = ix2 s t :=
  funext fun ax => Fin.ext (by match ax with | ⟨0, _⟩ => rfl | ⟨1, _⟩ => rfl)

/-- A row's maximum is the fold of `max` from −∞ over the row's 1024 entries. -/
theorem rowMaxV_at (x : FVec Ideal S1024x1024 .f32) (s : Fin 1024) :
    rowMaxV x (ix1 s) = (Finset.univ : Finset (Fin 1024)).fold max negInf (fun t' => x (ix2 s t')) := by
  unfold rowMaxV
  refine (Ideal.multiReduction_maximumf_single x 0xFF800000#32 reduces_S1024x1024_S1024 (.inl rfl) rfl (ix1 s)).trans ?_
  show (Finset.univ : Finset (Fin 1024)).fold max negInf (fun t' => x (reduces_S1024x1024_S1024.lift (ix1 s) t')) = _
  exact congrArg (fun f => (Finset.univ : Finset (Fin 1024)).fold max negInf f) (funext fun t' => congrArg x (lift_row s t'))

/-- A row's sum is the sum of the row's 1024 entries. -/
theorem rowSumV_at (x : FVec Ideal S1024x1024 .f32) (s : Fin 1024) :
    rowSumV x (ix1 s) = ∑ t' : Fin 1024, x (ix2 s t') := by
  unfold rowSumV
  refine (Ideal.multiReduction_add_single x 0x00000000#32 reduces_S1024x1024_S1024 (.inl rfl) rfl (ix1 s)).trans ?_
  show ∑ t' : Fin 1024, x (reduces_S1024x1024_S1024.lift (ix1 s) t') = _
  simp only [lift_row]

theorem expsV_at (x : FVec Ideal S1024x1024 .f32) (s t : Fin 1024) :
    expsV x (ix2 s t) = rowExp (fun t' => x (ix2 s t')) t := by
  unfold expsV rowExp rowMax
  show Ideal.exp (x (ix2 s t) - broadcastTo S1024x1024 _ broadcasts_S1024x1_S1024x1024 (ix2 s t)) = _
  rw [broadcastTo_a1_ab_apply, shapeCast_a_a1_apply, maximumf_apply, rowMaxV_at]
  rfl

theorem probsV_at (x : FVec Ideal S1024x1024 .f32) (s t : Fin 1024) :
    probsV x (ix2 s t) = prob (fun t' => x (ix2 s t')) t := by
  unfold probsV prob
  rw [divf_apply, broadcastTo_a1_ab_apply, shapeCast_a_a1_apply, rowSumV_at, expsV_at]
  exact congrArg (Ideal.div _) (Finset.sum_congr rfl fun t' _ => expsV_at x s t')

/-- A score: row `s` of `q` against row `t` of `k`, scaled by 2⁻³, plus the bias. -/
theorem scoresV_at (q k : FVec Ideal S1x1024x64 .bf16) (bias : FVec Ideal S1x1024x1024 .f32) (s t : Fin 1024) :
    scoresV q k bias (ix2 s t) = (∑ e : Fin 64, q (ix3 (0 : Fin 1) s e) * k (ix3 (0 : Fin 1) t e)) * Ideal.ofBits .f32 0x3E000000#32
      + bias (ix3 (0 : Fin 1) s t) := by
  unfold scoresV
  rw [addf_apply, mulf_apply, matmul_qk_at]
  simp only [shapeCast_1ab_ab_apply]
  rfl

/-- What the body stores at `(s, d)` of its block: the attention of score row `s` against column `d` of `v`. -/
theorem pay_at (q k v : FVec Ideal S1x1024x64 .bf16) (bias : FVec Ideal S1x1024x1024 .f32) (u : Fin 1) (s : Fin 1024) (d : Fin 64) :
    k1_pay1 (F := Ideal) q k v bias (ix3 u s d)
      = attn (fun t => scoresV q k bias (ix2 s t)) (fun t => v (ix3 (0 : Fin 1) t d)) := by
  rw [pay_eq, shapeCast_ab_1ab_apply, matmul_pv_at]
  unfold attn
  refine Finset.sum_congr rfl fun t _ => ?_
  rw [truncf_apply, probsV_at, shapeCast_1ab_ab_apply]

end Cert.KernelIdeal.Attn

end
-- ==== Proof.AttnArray.lean ====
/-
  From blocks to the array, for the attention. The grid has 64 points, one per (batch, head) pair `g`: point `g` reads
  block `g` — all of [1024, 64] — of each of the query, key and value arrays and block `g` — all of [1024, 1024] — of the
  bias, and writes back block `g` of the [64, 1024, 64] result. Every block is the restriction of ONE function of the four
  whole arrays: at `(g, s, d)` the row-softmax attention of the score row `t ↦ (∑ₑ Q[g,s,e] · K[g,t,e]) · 2⁻³ + B[g,s,t]`
  against the value column `t ↦ V[g,t,d]`. The 64 blocks cover the result, so after the region the result array IS
  that function.
-/
import proofs.«169326_j56238301774596_1_alg».proof.Proof.Gen.KernelIdeal.Frame
import proofs.«169326_j56238301774596_1_alg».proof.Proof.AttnBody

set_option maxRecDepth 16384

noncomputable section

namespace Cert.KernelIdeal.Attn

open Cert.KernelIdeal Cert.KernelIdeal.Gen Idealize.ShloMosaic Idealize.ShloMosaic.TcCoe Idealize.ShloMosaic.ValueIdx Cert.Softmax
open Idealize.ShloMosaic.Pipeline (Dat Cfg Window)

/-- The score row `s` of pair `g`, from the whole arrays. -/
def scoreRow (Q K : S64x1024x64.Idx → EReal) (B : S64x1024x1024.Idx → EReal) (g : Fin 64) (s : Fin 1024) : Fin 1024 → EReal :=
  fun t => (∑ e : Fin 64, Q (ix3 g s e) * K (ix3 g t e)) * Ideal.ofBits .f32 0x3E000000#32 + B (ix3 g s t)

/-- Attention of the whole arrays, pair by pair. -/
def attnArr (Q K Vv : S64x1024x64.Idx → EReal) (B : S64x1024x1024.Idx → EReal) : S64x1024x64.Idx → EReal :=
  fun i => attn (scoreRow Q K B ⟨(i 0).val, (i 0).isLt⟩ ⟨(i 1).val, (i 1).isLt⟩)
    (fun t => Vv (ix3 (⟨(i 0).val, (i 0).isLt⟩ : Fin 64) t (⟨(i 2).val, (i 2).isLt⟩ : Fin 64)))

theorem offset_origin : (![0, 0, 0] : Fin 3 → Nat) = fun _ => 0 := funext fun a => by fin_cases a <;> rfl

/-- The stored element from the blocks' entries, when each block is block `g` of its whole array. -/
theorem stored_entry (q k v : FVec Ideal S1x1024x64 .bf16) (bias : FVec Ideal S1x1024x1024 .f32)
    (Q K Vv : S64x1024x64.Idx → EReal) (B : S64x1024x1024.Idx → EReal) (g : Fin 64) (u : Fin 1) (s : Fin 1024) (d : Fin 64)
    (hq : ∀ (s' : Fin 1024) (e : Fin 64), q (ix3 (0 : Fin 1) s' e) = Q (ix3 g s' e))
    (hk : ∀ (t : Fin 1024) (e : Fin 64), k (ix3 (0 : Fin 1) t e) = K (ix3 g t e))
    (hv : ∀ (t : Fin 1024) (d' : Fin 64), v (ix3 (0 : Fin 1) t d') = Vv (ix3 g t d'))
    (hb : ∀ (s' t : Fin 1024), bias (ix3 (0 : Fin 1) s' t) = B (ix3 g s' t)) :
    k1_pay1 (F := Ideal) q k v bias (ix3 u s d) = attnArr Q K Vv B (ix3 g s d) := by
  rw [pay_at]
  show _ = attn (scoreRow Q K B g s) (fun t => Vv (ix3 g t d))
  refine congrArg₂ attn (funext fun t => ?_) (funext fun t => hv t d)
  rw [scoresV_at, hb]
  unfold scoreRow
  exact congrArg (fun z => z * Ideal.ofBits .f32 0x3E000000#32 + B (ix3 g s t)) (Finset.sum_congr rfl fun e _ => by rw [hq, hk])

variable (V : (c : Dev nD) → (b : Ref sig .tc) → Buf (Elt Ideal) ((c : Thread nD τ).loc b))

/-- The printed index maps over the grid: every window's block is the grid point's, whole on the other two axes. -/
theorem block_of_point : ∀ t : Fin cfg1.N,
    win1_0.index t (0 : Fin 3) = win1_4.index t (0 : Fin 3) ∧ win1_0.index t (1 : Fin 3) = 0 ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 3) = win1_4.index t (0 : Fin 3) ∧ win1_2.index t (1 : Fin 3) = 0 ∧ win1_2.index t (2 : Fin 3) = 0
    ∧ win1_3.index t (0 : Fin 3) = win1_4.index t (0 : Fin 3) ∧ win1_3.index t (1 : Fin 3) = 0 ∧ win1_3.index t (2 : Fin 3) = 0
    ∧ win1_4.index t (1 : Fin 3) = 0 ∧ win1_4.index t (2 : Fin 3) = 0 ∧ win1_4.index t (0 : Fin 3) ≤ 63 :=
  (by decide +kernel : ∀ t : Fin grid1.N, _)

/-- Every block of the result is some point's. -/
theorem point_of_block : ∀ (q0 : Fin 64), ∃ t : Fin cfg1.N, win1_4.index t = ![q0.val, 0, 0] :=
  (by decide +kernel : ∀ (q0 : Fin 64), ∃ t : Fin grid1.N, win1_4.index t = ![q0.val, 0, 0])

/-- What point `t` writes back is block `t` of the attention of the arrays as the region finds them. -/
theorem written_block (c : Dev nD) (t : Fin cfg1.N) :
    (dat1 V c).flushed 4 t = ((cfg1.win 4).blk t).view.read (Elt Ideal) (attnArr (V c main_v9) (V c main_v14) (V c main_v19) (V c main_v20)) := by
  show (cfg1.win 4).cut (grid1.coords t) ((dat1 V c).after 4 t) = _
  rw [after1_4]
  unfold out1_4
  rw [View.canon_unit_zero offset_origin]
  simp only [View.ld_unit_zero (S := S1x1024x64) offset_origin, View.ld_unit_zero (S := S1x1024x1024) offset_origin]
  funext j
  obtain ⟨e00, e01, e02, e10, e11, e12, e20, e21, e22, e30, e31, e32, e41, e42, e40⟩ := block_of_point t
  have hu : (j 0).val < 1 := (j 0).isLt
  have hs : (j 1).val < 1024 := (j 1).isLt
  have hd : (j 2).val < 64 := (j 2).isLt
  have hj : j = (ix3 (⟨(j 0).val, hu⟩ : Fin 1) (⟨(j 1).val, hs⟩ : Fin 1024) (⟨(j 2).val, hd⟩ : Fin 64) : S1x1024x64.Idx) :=
    funext fun a => by match a with | ⟨0, _⟩ => rfl | ⟨1, _⟩ => rfl | ⟨2, _⟩ => rfl
  have hg : win1_4.index t (0 : Fin 3) < 64 := by omega
  have hi : ((cfg1.win 4).blk t).view.emb j
      = (ix3 (⟨win1_4.index t (0 : Fin 3), hg⟩ : Fin 64) (⟨(j 1).val, hs⟩ : Fin 1024) (⟨(j 2).val, hd⟩ : Fin 64) : S64x1024x64.Idx) := by
    funext a; apply Fin.ext
    match a with
    | ⟨0, _⟩ => show win1_4.index t (0 : Fin 3) * 1 + 1 * (j 0).val = win1_4.index t (0 : Fin 3); omega
    | ⟨1, _⟩ => show win1_4.index t (1 : Fin 3) * 1024 + 1 * (j 1).val = (j 1).val; omega
    | ⟨2, _⟩ => show win1_4.index t (2 : Fin 3) * 64 + 1 * (j 2).val = (j 2).val; omega
  show k1_pay1 (F := Ideal) (iblk1 V c 0 t) (iblk1 V c 1 t) (iblk1 V c 2 t) (iblk1 V c 3 t) j
    = attnArr (V c main_v9) (V c main_v14) (V c main_v19) (V c main_v20) (((cfg1.win 4).blk t).view.emb j)
  rw [hi]
  refine (congrArg (k1_pay1 (F := Ideal) (iblk1 V c 0 t) (iblk1 V c 1 t) (iblk1 V c 2 t) (iblk1 V c 3 t)) hj).trans ?_
  refine stored_entry (iblk1 V c 0 t) (iblk1 V c 1 t) (iblk1 V c 2 t) (iblk1 V c 3 t) (V c main_v9) (V c main_v14) (V c main_v19) (V c main_v20)
    ⟨win1_4.index t (0 : Fin 3), hg⟩ ⟨(j 0).val, hu⟩ ⟨(j 1).val, hs⟩ ⟨(j 2).val, hd⟩ (fun s' e => ?_) (fun t' e => ?_) (fun t' d' => ?_) (fun s' t' => ?_)
  · show V c main_v9 (((cfg1.win 0).blk t).view.emb (ix3 (0 : Fin 1) s' e)) = V c main_v9 _
    refine congrArg (V c main_v9) (funext fun a => Fin.ext ?_)
    match a with
    | ⟨0, _⟩ => show win1_0.index t (0 : Fin 3) * 1 + 1 * 0 = win1_4.index t (0 : Fin 3); omega
    | ⟨1, _⟩ => show win1_0.index t (1 : Fin 3) * 1024 + 1 * s'.val = s'.val; omega
    | ⟨2, _⟩ => show win1_0.index t (2 : Fin 3) * 64 + 1 * e.val = e.val; omega
  · show V c main_v14 (((cfg1.win 1).blk t).view.emb (ix3 (0 : Fin 1) t' e)) = V c main_v14 _
    refine congrArg (V c main_v14) (funext fun a => Fin.ext ?_)
    match a with
    | ⟨0, _⟩ => show win1_1.index t (0 : Fin 3) * 1 + 1 * 0 = win1_4.index t (0 : Fin 3); omega
    | ⟨1, _⟩ => show win1_1.index t (1 : Fin 3) * 1024 + 1 * t'.val = t'.val; omega
    | ⟨2, _⟩ => show win1_1.index t (2 : Fin 3) * 64 + 1 * e.val = e.val; omega
  · show V c main_v19 (((cfg1.win 2).blk t).view.emb (ix3 (0 : Fin 1) t' d')) = V c main_v19 _
    refine congrArg (V c main_v19) (funext fun a => Fin.ext ?_)
    match a with
    | ⟨0, _⟩ => show win1_2.index t (0 : Fin 3) * 1 + 1 * 0 = win1_4.index t (0 : Fin 3); omega
    | ⟨1, _⟩ => show win1_2.index t (1 : Fin 3) * 1024 + 1 * t'.val = t'.val; omega
    | ⟨2, _⟩ => show win1_2.index t (2 : Fin 3) * 64 + 1 * d'.val = d'.val; omega
  · show V c main_v20 (((cfg1.win 3).blk t).view.emb (ix3 (0 : Fin 1) s' t')) = V c main_v20 _
    refine congrArg (V c main_v20) (funext fun a => Fin.ext ?_)
    match a with
    | ⟨0, _⟩ => show win1_3.index t (0 : Fin 3) * 1 + 1 * 0 = win1_4.index t (0 : Fin 3); omega
    | ⟨1, _⟩ => show win1_3.index t (1 : Fin 3) * 1024 + 1 * s'.val = s'.val; omega
    | ⟨2, _⟩ => show win1_3.index t (2 : Fin 3) * 1024 + 1 * t'.val = t'.val; omega

/-- An index of the result is in point `t`'s block iff each coordinate is in the block's range on its axis. -/
theorem in_block_iff (t : Fin cfg1.N) (i : S64x1024x64.Idx) :
    i ∈ ((cfg1.win 4).blk t).view.set ↔ ∀ a : Fin 3, win1_4.index t a * S1x1024x64.size a ≤ (i a).val ∧ (i a).val < win1_4.index t a * S1x1024x64.size a + S1x1024x64.size a := by
  show i ∈ ((View.whole main_v21).slice (win1_4.rect t)).set ↔ _
  rw [View.set_slice_whole, Rect.mem_set_unit]
  exact Iff.rfl

/-- Every index of the result is in some point's block: `(g, s, d)` is in block `g`. -/
theorem blocks_cover (i : S64x1024x64.Idx) : ∃ t : Fin cfg1.N, (cfg1.win 4).flush t = true ∧ i ∈ ((cfg1.win 4).blk t).view.set := by
  have hi0 : (i 0).val < 64 := (i 0).isLt
  have hi1 : (i 1).val < 1024 := (i 1).isLt
  have hi2 : (i 2).val < 64 := (i 2).isLt
  obtain ⟨t, ht⟩ := point_of_block ⟨(i 0).val, hi0⟩
  have q0 : win1_4.index t (0 : Fin 3) = (i 0).val := congrFun ht 0
  have q1 : win1_4.index t (1 : Fin 3) = 0 := congrFun ht 1
  have q2 : win1_4.index t (2 : Fin 3) = 0 := congrFun ht 2
  refine ⟨t, flush1_4 t, ?_⟩
  rw [in_block_iff]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 64 ≤ (i 2).val ∧ (i 2).val < win1_4.index t (2 : Fin 3) * 64 + 64; omega

/-- After the region the result array is the attention of the four arrays the region found. -/
theorem result_array (c : Dev nD) : (dat1 V c).arrAt 4 cfg1.N = attnArr (V c main_v9) (V c main_v14) (V c main_v19) (V c main_v20) :=
  (dat1 V c).arrAt_eq_of_cover 4 (attnArr (V c main_v9) (V c main_v14) (V c main_v19) (V c main_v20)) (fun t _ => written_block V c t) blocks_cover

end Cert.KernelIdeal.Attn

end
-- ==== Proof.LibReshapeAgree.lean ====
/-
  Two arrays of different shapes, each re-laid (reshaped) into one common shape, give the same array as soon as they
  agree at equal row-major positions: a reshape reads its operand at the index with the same row-major position, so
  both results read, at `j`, entries of their operands that sit at one position.
-/
import Idealize.ShloMosaic.Lib.Pipeline.Value

namespace Idealize.ShloMosaic.ValueIdx

open Idealize.ShloMosaic

/-- `shapeCast t X = shapeCast t Y` when `X` and `Y` agree wherever their indices have one row-major position. -/
theorem shapeCast_eq_of_rowMajor {s s' t : Shape} {α : Type} (X : s.Idx → α) (Y : s'.Idx → α) (h : s.ShapeCasts t) (h' : s'.ShapeCasts t)
    (hXY : ∀ (k : s.Idx) (k' : s'.Idx), (s.rowMajor k).val = (s'.rowMajor k').val → X k = Y k') :
    shapeCast t X h = shapeCast t Y h' := by
  funext j
  unfold shapeCast
  exact hXY _ _ ((Shape.rowMajor_reshapeEquiv h j).trans (Shape.rowMajor_reshapeEquiv h' j).symm)

/-- A reshape read where the operand's index is known by its row-major position, as an equation to rewrite with. -/
theorem shapeCast_eq_at {s t : Shape} {α : Type} (X : s.Idx → α) (h : s.ShapeCasts t) (j : t.Idx) (k : s.Idx)
    (hk : (s.rowMajor k).val = (t.rowMajor j).val) : shapeCast t X h j = X k :=
  shapeCast_apply X h j k hk

end Idealize.ShloMosaic.ValueIdx
-- ==== Proof.ProjBridge.lean ====
/-
  The projection, kernel against reference. The kernel's result is a [4096, 3072] array: row `r`, column `e` holds the
  sum over `k` of `h[r, k] · w[k, e]` plus `b[0, e]`, where `h` is the hidden states flattened, `w` the weight
  transposed and `b` the bias as a row. The reference's is a [4, 1024, 3072] array: `(b, s, e)` holds the sum over `k` of
  `x[b, s, k] · W[e, k]` plus `bias[e]`. Where `r = 1024·b + s` — that is, at equal row-major positions — the two sums
  have the same terms. Both programs then view their result as [4, 1024, 3, 16, 64], so those views are equal.
-/
import proofs.«169326_j56238301774596_1_alg».proof.Proof.Gen.ReferenceIdeal.Read
import proofs.«169326_j56238301774596_1_alg».proof.Proof.ProjArray
import proofs.«169326_j56238301774596_1_alg».proof.Proof.LibReshapeAgree
import Idealize.ShloMosaic.Lib.ValueLayout

noncomputable section

namespace Cert.Bridge

open Cert.KernelIdeal Cert.KernelIdeal.Gen Idealize.ShloMosaic Idealize.ShloMosaic.ValueIdx

/-- The kernel's projection of the re-laid arguments, viewed as [4, 1024, 3, 16, 64], is the reference's. -/
theorem proj_agree (x0 : S4x1024x1024.Idx → EReal) (x2 : S3072x1024.Idx → EReal) (x3 : S3072.Idx → EReal) :
    shapeCast S4x1024x3x16x64
      (Cert.KernelIdeal.Proj.projArr (shapeCast S4096x1024 x0 shapeCasts_S4x1024x1024_S4096x1024)
        (transpose S1024x3072 [1, 0] x2 transposes_S3072x1024_S1024x3072_1_0)
        (shapeCast S1x3072 x3 shapeCasts_S3072_S1x3072))
      shapeCasts_S4096x3072_S4x1024x3x16x64
    = Cert.ReferenceIdeal.Read.val_main_v4 (F := Ideal) x0 x2 x3 := by
  unfold Cert.ReferenceIdeal.Read.val_main_v4
  refine shapeCast_eq_of_rowMajor _ _ _ _ fun k k' hk => ?_
  rw [Shape.rowMajor_val_two, Shape.rowMajor_val_three] at hk
  have hk0 : (k 0).val < 4096 := (k 0).isLt
  have hk1 : (k 1).val < 3072 := (k 1).isLt
  have h0 : (k' 0).val < 4 := (k' 0).isLt
  have h1 : (k' 1).val < 1024 := (k' 1).isLt
  have h2 : (k' 2).val < 3072 := (k' 2).isLt
  have hk' : (k 0).val * 3072 + (k 1).val = ((k' 0).val * 1024 + (k' 1).val) * 3072 + (k' 2).val := hk
  have ec : (k 1).val = (k' 2).val := by omega
  have er : (k 0).val = (k' 0).val * 1024 + (k' 1).val := by omega
  unfold Cert.KernelIdeal.Proj.projArr
  rw [Cert.ReferenceIdeal.Read.val_main_v3_apply, Cert.ReferenceIdeal.Read.val_main_v0_apply,
    Cert.ReferenceIdeal.Read.val_main_v2_apply, Cert.ReferenceIdeal.Read.val_main_v1_apply]
  show (∑ κ : Fin 1024, _ * _) + _ = (∑ κ : Fin 1024, _ * _) + _
  refine congrArg₂ (· + ·) (Finset.sum_congr rfl fun κ _ => congrArg₂ (· * ·) ?_ ?_) ?_
  · exact shapeCast_apply x0 _ _ _ (by
      rw [Shape.rowMajor_val_three, Shape.rowMajor_val_two]
      show ((k' 0).val * 1024 + (k' 1).val) * 1024 + κ.val = (k 0).val * 1024 + κ.val
      omega)
  · rw [transpose_ix2_apply]
    exact congrArg x2 (funext fun a => Fin.ext (by match a with | ⟨0, _⟩ => exact ec | ⟨1, _⟩ => rfl))
  · rw [shapeCast_a_1a_apply]
    exact congrArg x3 (funext fun a => Fin.ext (by match a with | ⟨0, _⟩ => exact ec))

end Cert.Bridge

end
-- ==== Proof.AttnBridge.lean ====
/-
  The attention, kernel against reference. The kernel works on arrays flattened over (batch, head): pair
  `g = 16·b + h` of a [64, 1024, n] array is entry `(b, h)` of the [4, 16, 1024, n] array it was flattened from (equal
  row-major positions). So the kernel's score row `(g, s)` is the reference's score row `(b, h, s)`, its value column
  is the reference's, and — both sides being the one row-softmax attention of a score row against a value column —
  the kernel's [64, 1024, 64] result is the flattening of the reference's [4, 16, 1024, 64] one.
-/
import proofs.«169326_j56238301774596_1_alg».proof.Proof.AttnArray
import proofs.«169326_j56238301774596_1_alg».proof.Proof.LibReshapeAgree
import Idealize.ShloMosaic.Lib.ValueLayout

noncomputable section

namespace Cert.Bridge

open Cert.KernelIdeal Cert.KernelIdeal.Gen Idealize.ShloMosaic Idealize.ShloMosaic.ValueIdx Cert.Softmax

/-- Pair `g = 16·b + h` of a flattened array is entry `(b, h)` of the array it was flattened from. -/
theorem flat_at {n : Nat} (X : (⟨4, ![4, 16, 1024, n]⟩ : Shape).Idx → EReal)
    (hc : (⟨4, ![4, 16, 1024, n]⟩ : Shape).ShapeCasts ⟨3, ![64, 1024, n]⟩)
    (b : Fin 4) (h : Fin 16) (g : Fin 64) (hg : g.val = b.val * 16 + h.val) (s : Fin 1024) (e : Fin n) :
    shapeCast ⟨3, ![64, 1024, n]⟩ X hc (ix3 g s e) = X (ix4 b h s e) :=
  shapeCast_apply X hc _ _ (by
    rw [Shape.rowMajor_val_four, Shape.rowMajor_val_three]
    show ((b.val * 16 + h.val) * 1024 + s.val) * n + e.val = (g.val * 1024 + s.val) * n + e.val
    rw [hg])

/-- If a [4, 16, 1024, 64] array `Rf` is, entry by entry, the attention of the 4-d queries, keys, values and bias, then
    the kernel's attention of their flattenings is the flattening of `Rf`. -/
theorem attn_agree (Q4 K4 V4 : S4x16x1024x64.Idx → EReal) (B4 : S4x16x1024x1024.Idx → EReal) (Rf : S4x16x1024x64.Idx → EReal)
    (hR : ∀ (b : Fin 4) (h : Fin 16) (s : Fin 1024) (d : Fin 64), Rf (ix4 b h s d)
      = attn (fun t => (∑ e : Fin 64, Q4 (ix4 b h s e) * K4 (ix4 b h t e)) * Ideal.ofBits .f32 0x3E000000#32 + B4 (ix4 b h s t))
          (fun t => V4 (ix4 b h t d))) :
    Cert.KernelIdeal.Attn.attnArr (shapeCast S64x1024x64 Q4 shapeCasts_S4x16x1024x64_S64x1024x64)
      (shapeCast S64x1024x64 K4 shapeCasts_S4x16x1024x64_S64x1024x64)
      (shapeCast S64x1024x64 V4 shapeCasts_S4x16x1024x64_S64x1024x64)
      (shapeCast S64x1024x1024 B4 shapeCasts_S4x16x1024x1024_S64x1024x1024)
    = shapeCast S64x1024x64 Rf shapeCasts_S4x16x1024x64_S64x1024x64 := by
  funext i
  have h0 : (i 0).val < 64 := (i 0).isLt
  have h1 : (i 1).val < 1024 := (i 1).isLt
  have h2 : (i 2).val < 64 := (i 2).isLt
  obtain ⟨g, s, d, rfl⟩ : ∃ (g : Fin 64) (s : Fin 1024) (d : Fin 64), i = ix3 g s d :=
    ⟨⟨(i 0).val, h0⟩, ⟨(i 1).val, h1⟩, ⟨(i 2).val, h2⟩, funext fun a => by match a with | ⟨0, _⟩ => rfl | ⟨1, _⟩ => rfl | ⟨2, _⟩ => rfl⟩
  have hb : g.val / 16 < 4 := by have := g.isLt; omega
  have hh : g.val % 16 < 16 := by omega
  have hg : g.val = (⟨g.val / 16, hb⟩ : Fin 4).val * 16 + (⟨g.val % 16, hh⟩ : Fin 16).val := by
    show g.val = g.val / 16 * 16 + g.val % 16; omega
  rw [flat_at Rf _ ⟨g.val / 16, hb⟩ ⟨g.val % 16, hh⟩ g hg s d, hR]
  show attn (Cert.KernelIdeal.Attn.scoreRow _ _ _ g s) (fun t => shapeCast S64x1024x64 V4 _ (ix3 g t d)) = _
  refine congrArg₂ attn (funext fun t => ?_) (funext fun t => flat_at V4 _ _ _ g hg t d)
  unfold Cert.KernelIdeal.Attn.scoreRow
  rw [flat_at B4 _ ⟨g.val / 16, hb⟩ ⟨g.val % 16, hh⟩ g hg s t]
  refine congrArg (fun z => z * Ideal.ofBits .f32 0x3E000000#32 + B4 _) (Finset.sum_congr rfl fun e _ => ?_)
  rw [flat_at Q4 _ ⟨g.val / 16, hb⟩ ⟨g.val % 16, hh⟩ g hg s e, flat_at K4 _ ⟨g.val / 16, hb⟩ ⟨g.val % 16, hh⟩ g hg t e]

end Cert.Bridge

end
-- ==== Proof.RefAttn.lean ====
/-
  The reference's attention, read at an index. With the query, key and value stages kept as they are (the three
  [4, 16, 1024, 64] arrays the reference forms from its projection), the reference's scores at `(b, h, s, t)` are
  `(∑ₑ q[b,h,s,e] · k[b,h,t,e]) · 2⁻³ + bias[b,h,s,t]`; its row maximum, shifted exponentials, their sum and the quotient
  are the row softmax of that score row; and its last product pairs the weights with column `d` of the values. So
  its output at `(b, h, s, d)` is the row-softmax attention of score row `(b, h, s)` against that column.
-/
import proofs.«169326_j56238301774596_1_alg».proof.Proof.Gen.ReferenceIdeal.Read
import proofs.«169326_j56238301774596_1_alg».proof.Proof.RowSoftmax
import Idealize.ShloMosaic.Lib.ValueIdx
import Idealize.ShloMosaic.PureOps.Ideal.Laws
import Idealize.ShloMosaic.PureOps.Reduce

noncomputable section

namespace Cert.ReferenceIdeal.RefAttn

open Cert.ReferenceIdeal Cert.ReferenceIdeal.Gen Cert.ReferenceIdeal.Read Idealize.ShloMosaic Idealize.ShloMosaic.ValueIdx Cert.Softmax

variable (x0 : (⟨S4x1024x1024, .f32⟩ : BufTy).Contents (Elt Ideal)) (x1 : (⟨S4x16x1024x1024, .f32⟩ : BufTy).Contents (Elt Ideal))
  (x2 : (⟨S3072x1024, .f32⟩ : BufTy).Contents (Elt Ideal)) (x3 : (⟨S3072, .f32⟩ : BufTy).Contents (Elt Ideal))

/-- The reference's score row `(b, h, s)`. -/
def scoreRow (b : Fin 4) (h : Fin 16) (s : Fin 1024) : Fin 1024 → EReal :=
  fun t => val_main_v17 (F := Ideal) x0 x1 x2 x3 (ix4 b h s t)

/-- A score: row `s` of the queries against row `t` of the keys, scaled by 2⁻³, plus the bias. -/
theorem score_at (b : Fin 4) (h : Fin 16) (s t : Fin 1024) :
    scoreRow x0 x1 x2 x3 b h s t
      = (∑ e : Fin 64, val_main_v7 (F := Ideal) x0 x2 x3 (ix4 b h s e) * val_main_v10 (F := Ideal) x0 x2 x3 (ix4 b h t e))
          * Ideal.ofBits .f32 0x3E000000#32 + x1 (ix4 b h s t) := by
  unfold scoreRow
  rw [val_main_v17_apply, val_main_v16_apply, val_main_v15_apply, val_main_cst_apply, val_main_v14_apply]
  have el : ∀ e : Fin 64, lidx_main_v14 (ix4 b h s t) e = ix4 b h s e := fun e => funext fun a => Fin.ext (by
    match a with | ⟨0, _⟩ => rfl | ⟨1, _⟩ => rfl | ⟨2, _⟩ => rfl | ⟨3, _⟩ => rfl)
  have er : ∀ e : Fin 64, ridx_main_v14 (ix4 b h s t) e = ix4 b h t e := fun e => funext fun a => Fin.ext (by
    match a with | ⟨0, _⟩ => rfl | ⟨1, _⟩ => rfl | ⟨2, _⟩ => rfl | ⟨3, _⟩ => rfl)
  simp only [el, er]
  rfl

/-- The reduced axis of the two row reductions. -/
theorem red : S4x16x1024x1024.Reduces [3] S4x16x1024 := by decide

theorem lift_row (b : Fin 4) (h : Fin 16) (s t : Fin 1024) : red.lift (ix3 b h s) t = ix4 b h s t :=
  funext fun a => Fin.ext (by match a with | ⟨0, _⟩ => rfl | ⟨1, _⟩ => rfl | ⟨2, _⟩ => rfl | ⟨3, _⟩ => rfl)

/-- A maximum taken along the last axis of any [4, 16, 1024, 1024] array, at `(b, h, s)`: the fold of `max` from the
    initial value over the row's 1024 entries. -/
theorem hostmax_row (y : S4x16x1024x1024.Idx → EReal) (init : S_.Idx → EReal) (b : Fin 4) (h : Fin 16) (s : Fin 1024) :
    Host.reduce (FloatOps.maximumf (F := Ideal) (φ := .f32)) y init reducesTo_S4x16x1024x1024_S4x16x1024_d3 h_S_ (ix3 b h s)
      = (Finset.univ : Finset (Fin 1024)).fold max (init (Shape.Idx.first h_S_)) (fun t => y (ix4 b h s t)) := by
  rw [Host.reduce_eq_fold_single (FloatOps.maximumf (F := Ideal) (φ := .f32)) y init _ red _ (ix3 b h s)]
  have e : (y ∘ red.lift (ix3 b h s)) = fun t : Fin 1024 => y (ix4 b h s t) := funext fun t => congrArg y (lift_row b h s t)
  rw [e]
  rfl

/-- The reference's row maximum is the row maximum of the score row. -/
theorem max_at (b : Fin 4) (h : Fin 16) (s : Fin 1024) :
    val_main_v20 (F := Ideal) x0 x1 x2 x3 (ix3 b h s) = rowMax (scoreRow x0 x1 x2 x3 b h s) := by
  rw [val_main_v20_apply, val_main_v19_apply, val_main_cst_1_apply]
  unfold val_main_v18 rowMax scoreRow
  generalize val_main_v17 (F := Ideal) x0 x1 x2 x3 = y
  rw [hostmax_row]
  rfl

/-- The reference's exponentials are the shifted exponentials of the score row. -/
theorem exp_at (b : Fin 4) (h : Fin 16) (s t : Fin 1024) :
    val_main_v24 (F := Ideal) x0 x1 x2 x3 (ix4 b h s t) = rowExp (scoreRow x0 x1 x2 x3 b h s) t := by
  rw [val_main_v24_apply, val_main_v23_apply, val_main_v22_apply, val_main_v21_apply]
  have e1 : idx_main_v21 (idx_main_v22 (ix4 b h s t)) = ix3 b h s := funext fun a => Fin.ext (by
    match a with | ⟨0, _⟩ => rfl | ⟨1, _⟩ => rfl | ⟨2, _⟩ => rfl)
  rw [e1, max_at]
  rfl

/-- Their sum along the row. -/
theorem sum_at (b : Fin 4) (h : Fin 16) (s : Fin 1024) :
    val_main_v25 (F := Ideal) x0 x1 x2 x3 (ix3 b h s) = ∑ t : Fin 1024, rowExp (scoreRow x0 x1 x2 x3 b h s) t := by
  rw [val_main_v25_apply, val_main_cst_2_apply]
  have e1 : ∀ t : Fin 1024, idx_main_v25 (ix3 b h s) t = ix4 b h s t := fun t => funext fun a => Fin.ext (by
    match a with | ⟨0, _⟩ => rfl | ⟨1, _⟩ => rfl | ⟨2, _⟩ => rfl | ⟨3, _⟩ => rfl)
  simp only [e1, exp_at]
  show Ideal.ofBits .f32 0x00000000#32 + _ = _
  rw [Ideal.ofBits_zero_f32, zero_add]

/-- The reference's weights are the softmax weights of the score row. -/
theorem prob_at (b : Fin 4) (h : Fin 16) (s t : Fin 1024) :
    val_main_v28 (F := Ideal) x0 x1 x2 x3 (ix4 b h s t) = prob (scoreRow x0 x1 x2 x3 b h s) t := by
  rw [val_main_v28_apply, val_main_v27_apply, val_main_v26_apply]
  have e1 : idx_main_v26 (idx_main_v27 (ix4 b h s t)) = ix3 b h s := funext fun a => Fin.ext (by
    match a with | ⟨0, _⟩ => rfl | ⟨1, _⟩ => rfl | ⟨2, _⟩ => rfl)
  rw [e1, sum_at, exp_at]
  rfl

/-- The reference's output at `(b, h, s, d)`: the attention of score row `(b, h, s)` against column `d` of the values. -/
theorem out_at (b : Fin 4) (h : Fin 16) (s : Fin 1024) (d : Fin 64) :
    val_main_v29 (F := Ideal) x0 x1 x2 x3 (ix4 b h s d)
      = attn (scoreRow x0 x1 x2 x3 b h s) (fun t => val_main_v13 (F := Ideal) x0 x2 x3 (ix4 b h t d)) := by
  rw [val_main_v29_apply]
  have el : ∀ t : Fin 1024, lidx_main_v29 (ix4 b h s d) t = ix4 b h s t := fun t => funext fun a => Fin.ext (by
    match a with | ⟨0, _⟩ => rfl | ⟨1, _⟩ => rfl | ⟨2, _⟩ => rfl | ⟨3, _⟩ => rfl)
  have er : ∀ t : Fin 1024, ridx_main_v29 (ix4 b h s d) t = ix4 b h t d := fun t => funext fun a => Fin.ext (by
    match a with | ⟨0, _⟩ => rfl | ⟨1, _⟩ => rfl | ⟨2, _⟩ => rfl | ⟨3, _⟩ => rfl)
  simp only [el, er, prob_at]
  rfl

end Cert.ReferenceIdeal.RefAttn

end
-- ==== Proof.KernelValue.lean ====
/-
  The kernel's result as a function of its arguments. Boundary by boundary: the result buffer holds the heads of the
  attention's output merged back into [4, 1024, 1024]; the attention's output is the attention of the query, key,
  value and bias arrays it found; those are the three slices of the projection's result re-laid as heads, and the
  bias argument flattened; the projection's result is the projection of the re-laid arguments. The projection viewed
  as [4, 1024, 3, 16, 64] is the reference's (both sum the same products), the slicing and re-laying are the reference's
  own operations, the kernel's attention of flattened arrays is the flattening of the reference's attention, and the
  last stretch undoes that flattening before the reference's own transpose and reshape. So the kernel's result is
  the reference's last stage of the same four arguments.
-/
import proofs.«169326_j56238301774596_1_alg».proof.Proof.HostChain
import proofs.«169326_j56238301774596_1_alg».proof.Proof.ProjArray
import proofs.«169326_j56238301774596_1_alg».proof.Proof.AttnArray
import proofs.«169326_j56238301774596_1_alg».proof.Proof.ProjBridge
import proofs.«169326_j56238301774596_1_alg».proof.Proof.AttnBridge
import proofs.«169326_j56238301774596_1_alg».proof.Proof.RefAttn

set_option maxRecDepth 16384

noncomputable section

namespace Cert.Bridge

open Cert.KernelIdeal Cert.KernelIdeal.Gen Idealize.ShloMosaic Idealize.ShloMosaic.TcCoe Idealize.ShloMosaic.ValueIdx Cert.Softmax

section Heads

variable (Y : S4096x3072.Idx → EReal) (x0 : S4x1024x1024.Idx → EReal) (x2 : S3072x1024.Idx → EReal) (x3 : S3072.Idx → EReal)
  (hY : shapeCast S4x1024x3x16x64 Y shapeCasts_S4096x3072_S4x1024x3x16x64 = Cert.ReferenceIdeal.Read.val_main_v4 (F := Ideal) x0 x2 x3)
include hY

/-- The kernel's query array is the reference's queries, flattened over (batch, head). -/
theorem query_eq : Cert.KernelIdeal.Host.heads 0 slices_S4x1024x3x16x64_S4x1024x1x16x64_0_0_0_0_0 Y
    = shapeCast S64x1024x64 (Cert.ReferenceIdeal.Read.val_main_v7 (F := Ideal) x0 x2 x3) shapeCasts_S4x16x1024x64_S64x1024x64 := by
  unfold Cert.KernelIdeal.Host.heads Cert.ReferenceIdeal.Read.val_main_v7 Cert.ReferenceIdeal.Read.val_main_v6 Cert.ReferenceIdeal.Read.val_main_v5
  rw [hY]
  generalize Cert.ReferenceIdeal.Read.val_main_v4 (F := Ideal) x0 x2 x3 = T
  rfl

/-- The kernel's key array is the reference's keys, flattened. -/
theorem key_eq : Cert.KernelIdeal.Host.heads 1 slices_S4x1024x3x16x64_S4x1024x1x16x64_0_0_1_0_0 Y
    = shapeCast S64x1024x64 (Cert.ReferenceIdeal.Read.val_main_v10 (F := Ideal) x0 x2 x3) shapeCasts_S4x16x1024x64_S64x1024x64 := by
  unfold Cert.KernelIdeal.Host.heads Cert.ReferenceIdeal.Read.val_main_v10 Cert.ReferenceIdeal.Read.val_main_v9 Cert.ReferenceIdeal.Read.val_main_v8
  rw [hY]
  generalize Cert.ReferenceIdeal.Read.val_main_v4 (F := Ideal) x0 x2 x3 = T
  rfl

/-- The kernel's value array is the reference's values, flattened. -/
theorem value_eq : Cert.KernelIdeal.Host.heads 2 slices_S4x1024x3x16x64_S4x1024x1x16x64_0_0_2_0_0 Y
    = shapeCast S64x1024x64 (Cert.ReferenceIdeal.Read.val_main_v13 (F := Ideal) x0 x2 x3) shapeCasts_S4x16x1024x64_S64x1024x64 := by
  unfold Cert.KernelIdeal.Host.heads Cert.ReferenceIdeal.Read.val_main_v13 Cert.ReferenceIdeal.Read.val_main_v12 Cert.ReferenceIdeal.Read.val_main_v11
  rw [hY]
  generalize Cert.ReferenceIdeal.Read.val_main_v4 (F := Ideal) x0 x2 x3 = T
  rfl

end Heads

/-- The reference's attention output, entry by entry, in the form the kernel's side is compared with. -/
theorem ref_attn (x0 : S4x1024x1024.Idx → EReal) (x1 : S4x16x1024x1024.Idx → EReal) (x2 : S3072x1024.Idx → EReal) (x3 : S3072.Idx → EReal)
    (b : Fin 4) (h : Fin 16) (s : Fin 1024) (d : Fin 64) :
    Cert.ReferenceIdeal.Read.val_main_v29 (F := Ideal) x0 x1 x2 x3 (ix4 b h s d)
      = attn (fun t => (∑ e : Fin 64, Cert.ReferenceIdeal.Read.val_main_v7 (F := Ideal) x0 x2 x3 (ix4 b h s e)
              * Cert.ReferenceIdeal.Read.val_main_v10 (F := Ideal) x0 x2 x3 (ix4 b h t e)) * Ideal.ofBits .f32 0x3E000000#32 + x1 (ix4 b h s t))
          (fun t => Cert.ReferenceIdeal.Read.val_main_v13 (F := Ideal) x0 x2 x3 (ix4 b h t d)) := by
  rw [Cert.ReferenceIdeal.RefAttn.out_at]
  exact congrArg (fun f => attn f _) (funext fun t => Cert.ReferenceIdeal.RefAttn.score_at x0 x1 x2 x3 b h s t)

variable (m : (ℓ : Loc nD τ sig) → Buf (Elt Ideal) ℓ) (ρ : Dev nD → PrngReg) (c : Dev nD)

/-- What the kernel's result buffer holds after the run: the reference's last stage of the four arguments. -/
theorem kernel_value :
    W5 m ρ c (Proc.devRef .tc main_v24)
      = Cert.ReferenceIdeal.Read.val_main_v31 (F := Ideal) (m ((c : Thread nD τ).loc main_arg0)) (m ((c : Thread nD τ).loc main_arg1))
          (m ((c : Thread nD τ).loc main_arg2)) (m ((c : Thread nD τ).loc main_arg3)) := by
  have hY := proj_agree (m ((c : Thread nD τ).loc main_arg0)) (m ((c : Thread nD τ).loc main_arg2)) (m ((c : Thread nD τ).loc main_arg3))
  rw [Cert.KernelIdeal.Host.result, Cert.KernelIdeal.Host.out_attn, Cert.KernelIdeal.Attn.result_array, Cert.KernelIdeal.Host.in_query,
    Cert.KernelIdeal.Host.in_key, Cert.KernelIdeal.Host.in_value, Cert.KernelIdeal.Host.in_attn_bias, Cert.KernelIdeal.Host.keep_bias,
    Cert.KernelIdeal.Host.out_proj, Cert.KernelIdeal.Proj.result_array, Cert.KernelIdeal.Host.in_hidden, Cert.KernelIdeal.Host.in_weight,
    Cert.KernelIdeal.Host.in_bias]
  rw [query_eq _ _ _ _ hY, key_eq _ _ _ _ hY, value_eq _ _ _ _ hY,
    attn_agree _ _ _ _ (Cert.ReferenceIdeal.Read.val_main_v29 (F := Ideal) (m ((c : Thread nD τ).loc main_arg0)) (m ((c : Thread nD τ).loc main_arg1))
        (m ((c : Thread nD τ).loc main_arg2)) (m ((c : Thread nD τ).loc main_arg3)))
      (ref_attn (m ((c : Thread nD τ).loc main_arg0)) (m ((c : Thread nD τ).loc main_arg1)) (m ((c : Thread nD τ).loc main_arg2)) (m ((c : Thread nD τ).loc main_arg3)))]
  unfold Cert.KernelIdeal.Host.merge Cert.ReferenceIdeal.Read.val_main_v31 Cert.ReferenceIdeal.Read.val_main_v30
  rw [shapeCast_shapeCast]

end Cert.Bridge

end
-- ==== Proof.lean ====
/-
  Fused QKV projection followed by multi-head attention with an additive bias, against its jnp reference, over the
  extended reals.

  The kernel's program projects the flattened hidden states with one tiled pallas_call (`h · Wᵀ + b`, a [4096, 3072]
  array computed in 8 × 3 blocks), re-lays the result into per-head query, key and value arrays, and runs a second
  pallas_call with one grid point per (batch, head) pair: scores `q · kᵀ · 2⁻³ + bias`, a softmax along each row
  (maximum from −∞, shifted exponentials, their sum, the quotient), and the product with `v`; the heads are then
  merged back into [4, 1024, 1024]. The reference does the same with whole-array operations: an einsum for the
  projection, batched products for the scores and the output, `jax.nn.softmax` along the last axis.

  At the ideal values every change of float format is the identity, every product into a zero accumulator is a
  plain sum, and both programs use the same literals (2⁻³, −∞, 0). So the two differ only in how sums are laid out:
  the kernel's row `r = 1024·b + s` of the projection is the reference's `(b, s)`, and its pair `g = 16·b + h` is the
  reference's `(b, h)`. Each score row, its softmax and each output element are then ONE function — the row-softmax
  attention of a score row against a value column — of the same numbers on both sides; only commutativity and
  associativity of sums are used, so the finiteness of the inputs is never needed.

  The three frames: the two kernel programs' are the generated frame certificates; the reference's is its run with the
  result dropped. The idealization rewrote nothing, so `preserves` is `True`. For `algebraic` both runs are stated
  with one result term, the reference's last stage of the arguments.
-/
import proofs.«169326_j56238301774596_1_alg».proof.Defs
import proofs.«169326_j56238301774596_1_alg».proof.Proof.Gen.Kernel
import proofs.«169326_j56238301774596_1_alg».proof.Proof.Gen.Kernel.Skeleton
import proofs.«169326_j56238301774596_1_alg».proof.Proof.Gen.Kernel.Launch
import proofs.«169326_j56238301774596_1_alg».proof.Proof.Gen.Kernel.Points
import proofs.«169326_j56238301774596_1_alg».proof.Proof.Gen.Kernel.Frame
import proofs.«169326_j56238301774596_1_alg».proof.Proof.Gen.KernelIdeal
import proofs.«169326_j56238301774596_1_alg».proof.Proof.Gen.KernelIdeal.Skeleton
import proofs.«169326_j56238301774596_1_alg».proof.Proof.Gen.KernelIdeal.Launch
import proofs.«169326_j56238301774596_1_alg».proof.Proof.Gen.KernelIdeal.Points
import proofs.«169326_j56238301774596_1_alg».proof.Proof.Gen.KernelIdeal.Frame
import proofs.«169326_j56238301774596_1_alg».proof.Proof.Gen.ReferenceIdeal
import proofs.«169326_j56238301774596_1_alg».proof.Proof.Gen.ReferenceIdeal.Run
import proofs.«169326_j56238301774596_1_alg».proof.Proof.Gen.ReferenceIdeal.Read
import proofs.«169326_j56238301774596_1_alg».proof.Proof.Gen.Pre_finite_inputs
import proofs.«169326_j56238301774596_1_alg».proof.Proof.KernelRun
import proofs.«169326_j56238301774596_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments both programs end with the reference's last stage of those arguments
    in their result buffers: the kernel's by reading its boundaries back to the arguments, the reference's by its run. -/
theorem algebraic : Cert.algebraic_KernelIdeal_ReferenceIdeal := by
  intro m ρ m' ρ' _ hagree
  refine ⟨fun c => Cert.ReferenceIdeal.Read.val_main_v31 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.Bridge.kernel_value m ρ c), (h c).2⟩) (Cert.KernelIdeal.Out.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v31_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
